-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S2048x8 .f32) (main_arg1 : FVec F S64x16 .f32) (main_arg2 : FVec F S64 .f32) (main_arg3 : FVec F S8x64 .f32) (main_arg4 : FVec F S8 .f32) : IVec S_ 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_v13 main_v16
-- ==== Kernel.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S64x8 : Shape := ⟨2, ![64, 8]⟩
abbrev S2048x64 : Shape := ⟨2, ![2048, 64]⟩
abbrev S1x64 : Shape := ⟨2, ![1, 64]⟩
abbrev S2048x128 : Shape := ⟨2, ![2048, 128]⟩
abbrev S1024x128 : Shape := ⟨2, ![1024, 128]⟩
abbrev S256x128 : Shape := ⟨2, ![256, 128]⟩
abbrev S128x128 : Shape := ⟨2, ![128, 128]⟩
abbrev S256x64 : Shape := ⟨2, ![256, 64]⟩
abbrev S8x128 : Shape := ⟨2, ![8, 128]⟩
abbrev S1x256x128 : Shape := ⟨3, ![1, 256, 128]⟩
abbrev S8x1x128 : Shape := ⟨3, ![8, 1, 128]⟩
abbrev S8x256x128 : Shape := ⟨3, ![8, 256, 128]⟩
abbrev S_ : Shape := ⟨0, ![]⟩
abbrev S1x8 : Shape := ⟨2, ![1, 8]⟩

abbrev nBuf : Space → Nat
  | .hbm => 25
  | .vmem => 8
  | .smem => 0
  | _ => 0

abbrev bufTy : (tb : Table) → Fin (tcTables nBuf tb) → BufTy
  | .hbm, ⟨0, _⟩ => ⟨S2048x8, .f32⟩
  | .hbm, ⟨1, _⟩ => ⟨S64x16, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S64x8, .f32⟩
  | .hbm, ⟨6, _⟩ => ⟨S2048x64, .f32⟩
  | .hbm, ⟨7, _⟩ => ⟨S64x8, .f32⟩
  | .hbm, ⟨8, _⟩ => ⟨S2048x64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S2048x128, .f32⟩
  | .hbm, ⟨13, _⟩ => ⟨S1024x128, .f32⟩
  | .hbm, ⟨14, _⟩ => ⟨S2048x64, .f32⟩
  | .hbm, ⟨15, _⟩ => ⟨S2048x8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x8, .f32⟩
  | .hbm, ⟨24, _⟩ => ⟨S2048x8, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S128x128, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S64x16_S64x8_0_0 : S64x16.Slices ![0, 0] S64x8
  slices_S64x16_S64x8_0_8 : S64x16.Slices ![0, 8] S64x8
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  concatenates_S2048x64_S2048x64_S2048x128_d1 : Shape.Concatenates [S2048x64, S2048x64] S2048x128 1
  shapeCasts_S2048x64_S1024x128 : S2048x64.ShapeCasts S1024x128
  inb_S256x64_S256x64_0_0 : ∀ a, (![0, 0] : Fin 2 → Nat) a + S256x64.size a ≤ S256x64.size a
  h_S256x64 : 0 < S256x64.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S8x128_0_0 : ∀ a, (![0, 0] : Fin 2 → Nat) a + S8x128.size a ≤ S128x128.size a
  h_S8x128 : 0 < S8x128.numel
  shapeCasts_S8x128_S8x128 : S8x128.ShapeCasts S8x128
  shapeCasts_S256x128_S1x256x128 : S256x128.ShapeCasts S1x256x128
  shapeCasts_S8x128_S8x1x128 : S8x128.ShapeCasts S8x1x128
  broadcasts_S1x256x128_S8x256x128 : S1x256x128.Broadcasts S8x256x128
  broadcasts_S8x1x128_S8x256x128 : S8x1x128.Broadcasts S8x256x128
  reduces_S8x256x128_S256x128 : S8x256x128.Reduces [0] S256x128
  inb_S128x128_S8x128_8_0 : ∀ a, (![8, 0] : Fin 2 → Nat) a + S8x128.size a ≤ S128x128.size a
  inb_S128x128_S8x128_16_0 : ∀ a, (![16, 0] : Fin 2 → Nat) a + S8x128.size a ≤ S128x128.size a
  inb_S128x128_S8x128_24_0 : ∀ a, (![24, 0] : Fin 2 → Nat) a + S8x128.size a ≤ S128x128.size a
  inb_S128x128_S8x128_32_0 : ∀ a, (![32, 0] : Fin 2 → Nat) a + S8x128.size a ≤ S128x128.size a
  inb_S128x128_S8x128_40_0 : ∀ a, (![40, 0] : Fin 2 → Nat) a + S8x128.size a ≤ S128x128.size a
  inb_S128x128_S8x128_48_0 : ∀ a, (![48, 0] : Fin 2 → Nat) a + S8x128.size a ≤ S128x128.size a
  inb_S128x128_S8x128_56_0 : ∀ a, (![56, 0] : Fin 2 → Nat) a + S8x128.size a ≤ S128x128.size a
  inb_S128x128_S8x128_64_0 : ∀ a, (![64, 0] : Fin 2 → Nat) a + S8x128.size a ≤ S128x128.size a
  inb_S128x128_S8x128_72_0 : ∀ a, (![72, 0] : Fin 2 → Nat) a + S8x128.size a ≤ S128x128.size a
  inb_S128x128_S8x128_80_0 : ∀ a, (![80, 0] : Fin 2 → Nat) a + S8x128.size a ≤ S128x128.size a
  inb_S128x128_S8x128_88_0 : ∀ a, (![88, 0] : Fin 2 → Nat) a + S8x128.size a ≤ S128x128.size a
  inb_S128x128_S8x128_96_0 : ∀ a, (![96, 0] : Fin 2 → Nat) a + S8x128.size a ≤ S128x128.size a
  inb_S128x128_S8x128_104_0 : ∀ a, (![104, 0] : Fin 2 → Nat) a + S8x128.size a ≤ S128x128.size a
  inb_S128x128_S8x128_112_0 : ∀ a, (![112, 0] : Fin 2 → Nat) a + S8x128.size a ≤ S128x128.size a
  inb_S128x128_S8x128_120_0 : ∀ a, (![120, 0] : Fin 2 → Nat) a + S8x128.size a ≤ S128x128.size a
  slices_S256x128_o0_0_S256x64 : S256x128.Slices ![0, 0] S256x64
  slices_S256x128_o0_64_S256x64 : S256x128.Slices ![0, 64] S256x64
  shapeCasts_S256x64_S256x64 : S256x64.ShapeCasts S256x64
  bcast_S_S8 : S_.BroadcastsInDim S8 (![] : Fin 0 → Fin S8.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  dot_S2048x8_S64x8_S2048x64_1_1_0_0_n_n_wf : DotDims.WF S2048x8 S64x8 S2048x64 [1] [1] [0] [0] [] []
  dot_S2048x64_S8x64_S2048x8_1_1_0_0_n_n_wf : DotDims.WF S2048x64 S8x64 S2048x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S2048x64.size a
  hwx0_3 : ∀ i : grid0.Coords, EltTy.bits .f32 = 32 ∨ (Rect.block (s := S2048x64) S256x64.size (cc0_transform_3 i) (hinb0_3 i)).WholeWords (EltTy.packing .f32)

variable [Facts₀]

def dot_S2048x8_S64x8_S2048x64_1_1_0_0_n_n : DotDims S2048x8 S64x8 S2048x64 where
  lhsContracting := [1]
  rhsContracting := [1]
  lhsNonContracting := [0]
  rhsNonContracting := [0]
  lhsBatch := []
  rhsBatch := []
  wf := dot_S2048x8_S64x8_S2048x64_1_1_0_0_n_n_wf
def dot_S2048x64_S8x64_S2048x8_1_1_0_0_n_n : DotDims S2048x64 S8x64 S2048x8 where
  lhsContracting := [1]
  rhsContracting := [1]
  lhsNonContracting := [0]
  rhsNonContracting := [0]
  lhsBatch := []
  rhsBatch := []
  wf := dot_S2048x64_S8x64_S2048x8_1_1_0_0_n_n_wf

abbrev win0_0 : Pipeline.Window sig grid0 :=
  Pipeline.Window.ofSpec (Memref.whole main_v7) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S64x8 : Shape := ⟨2, ![64, 8]⟩
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S1x1x64 : Shape := ⟨3, ![1, 1, 64]⟩
abbrev S_ : Shape := ⟨0, ![]⟩
abbrev S1x64 : Shape := ⟨2, ![1, 64]⟩
abbrev S1x8 : Shape := ⟨2, ![1, 8]⟩

abbrev nBuf : Space → Nat
  | .hbm => 40
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S64x16, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S64x8, .f32⟩
  | .hbm, ⟨6, _⟩ => ⟨S2048x64, .f32⟩
  | .hbm, ⟨7, _⟩ => ⟨S64x8, .f32⟩
  | .hbm, ⟨8, _⟩ => ⟨S2048x64, .f32⟩
  | .hbm, ⟨9, _⟩ => ⟨S2048x1x64, .f32⟩
  | .hbm, ⟨10, _⟩ => ⟨S1x2048x64, .f32⟩
  | .hbm, ⟨11, _⟩ => ⟨S2048x2048x64, .f32⟩
  | .hbm, ⟨12, _⟩ => ⟨S2048x2048x64, .f32⟩
  | .hbm, ⟨13, _⟩ => ⟨S2048x2048x64, .f32⟩
  | .hbm, ⟨14, _⟩ => ⟨S1x1x64, .f32⟩
  | .hbm, ⟨15, _⟩ => ⟨S2048x2048x64, .f32⟩
  | .hbm, ⟨16, _⟩ => ⟨S2048x2048x64, .f32⟩
  | .hbm, ⟨17, _⟩ => ⟨S_, .f32⟩
  | .hbm, ⟨18, _⟩ => ⟨S2048x2048x64, .f32⟩
  | .hbm, ⟨19, _⟩ => ⟨S2048x2048x64, .f32⟩
  | .hbm, ⟨20, _⟩ => ⟨S_, .f32⟩
  | .hbm, ⟨21, _⟩ => ⟨S2048x64, .f32⟩
  | .hbm, ⟨22, _⟩ => ⟨S2048x64, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048x8, .f32⟩
  | .hbm, ⟨39, _⟩ => ⟨S2048x8, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S64x16_S64x8_0_0 : S64x16.Slices ![0, 0] S64x8
  slices_S64x16_S64x8_0_8 : S64x16.Slices ![0, 8] S64x8
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  bcast_S64_S1x1x64_2 : S64.BroadcastsInDim S1x1x64 (![2] : Fin 1 → Fin S1x1x64.rank)
  bcast_S1x1x64_S2048x2048x64_0_1_2 : S1x1x64.BroadcastsInDim S2048x2048x64 (![0, 1, 2] : Fin 3 → Fin S2048x2048x64.rank)
  bcast_S_S2048x2048x64 : S_.BroadcastsInDim S2048x2048x64 (![] : Fin 0 → Fin S2048x2048x64.rank)
  reducesTo_S2048x2048x64_S2048x64_d1 : S2048x2048x64.ReducesTo [1] S2048x64
  h_S_ : 0 < S_.numel
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S_S8 : S_.BroadcastsInDim S8 (![] : Fin 0 → Fin S8.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  dot_S2048x8_S64x8_S2048x64_1_1_0_0_n_n_wf : DotDims.WF S2048x8 S64x8 S2048x64 [1] [1] [0] [0] [] []
  dot_S2048x64_S8x64_S2048x8_1_1_0_0_n_n_wf : DotDims.WF S2048x64 S8x64 S2048x8 [1] [1] [0] [0] [] []

variable [Facts₀]

def dot_S2048x8_S64x8_S2048x64_1_1_0_0_n_n : DotDims S2048x8 S64x8 S2048x64 where
  lhsContracting := [1]
  rhsContracting := [1]
  lhsNonContracting := [0]
  rhsNonContracting := [0]
  lhsBatch := []
  rhsBatch := []
  wf := dot_S2048x8_S64x8_S2048x64_1_1_0_0_n_n_wf
def dot_S2048x64_S8x64_S2048x8_1_1_0_0_n_n : DotDims S2048x64 S8x64 S2048x8 where
  lhsContracting := [1]
  rhsContracting := [1]
  lhsNonContracting := [0]
  rhsNonContracting := [0]
  lhsBatch := []
  rhsBatch := []
  wf := dot_S2048x64_S8x64_S2048x8_1_1_0_0_n_n_wf

class Facts : Prop extends Facts₀ where

variable [Facts]
-- ==== Proof.Vocab.lean ====
/-
  One vocabulary for the body's arithmetic.

  The body adds, sixteen times, the same function of the query block `x` ([256, 128]: a row's 64 hidden values,
  twice) and eight packed rows `v` ([8, 128]) of the key block: `chunk x v`, at (r, l) the sum over the eight rows
  s of max (x (r, l) + v (s, l)) 0. It then folds the two 64-lane halves of the accumulated [256, 128] block into
  [256, 64], adds that to the output block, and at the last reduction step subtracts the diagonal term
  max (x (r, h) + d (r, h)) 0.  Each printed payload is, definitionally, a few of these steps.
-/
import proofs.«129454_j29652454212127_2_alg».proof.Proof.Gen.KernelIdeal.Skeleton
import Idealize.ShloMosaic.Lib.Pipeline.Value

noncomputable section

namespace Cert.KernelIdeal.Vocab

open Idealize.ShloMosaic Idealize.SL.Sem
open Cert.KernelIdeal Cert.KernelIdeal.Gen

variable {F : FTy → Type} [FloatOps F]

/-- The zero block of the accumulator's shape. -/
abbrev zero128 : FVec F S256x128 .f32 := broadcast S256x128 (Scalar.ofBits .f32 0x00000000#32)

/-- The zero block of the output's shape. -/
abbrev zero64 : FVec F S256x64 .f32 := broadcast S256x64 (Scalar.ofBits .f32 0x00000000#32)

/-- Eight packed key rows against the whole query block: at (r, l) the sum over the rows s of
    max (x (r, l) + v (s, l)) 0. -/
def chunk (x : FVec F S256x128 .f32) (v : Vec F S8x128 .f32) : FVec F S256x128 .f32 :=
  multiReduction .add [0] S256x128
    (maximumf
      (addf (broadcastTo S8x256x128 (shapeCast S1x256x128 x shapeCasts_S256x128_S1x256x128) broadcasts_S1x256x128_S8x256x128)
        (broadcastTo S8x256x128 (shapeCast S8x1x128 (shapeCast S8x128 v shapeCasts_S8x128_S8x128) shapeCasts_S8x128_S8x1x128)
          broadcasts_S8x1x128_S8x256x128))
      (broadcast S8x256x128 (Scalar.ofBits .f32 0x00000000#32)))
    0x00000000#32 reduces_S8x256x128_S256x128 (.inl rfl) rfl

/-- The two 64-lane halves of an accumulated block, added. -/
def fold (a : FVec F S256x128 .f32) : FVec F S256x64 .f32 :=
  addf (extractStridedSlice S256x64 ![0, 0] a slices_S256x128_o0_0_S256x64)
    (extractStridedSlice S256x64 ![0, 64] a slices_S256x128_o0_64_S256x64)

/-- The diagonal term: the query block's first half against the key rows of the same positions. -/
def diag (x : FVec F S256x128 .f32) (d : Vec F S256x64 .f32) : FVec F S256x64 .f32 :=
  maximumf (addf (extractStridedSlice S256x64 ![0, 0] x slices_S256x128_o0_0_S256x64) (shapeCast S256x64 d shapeCasts_S256x64_S256x64))
    (broadcast S256x64 (Scalar.ofBits .f32 0x00000000#32))

/-- The accumulator after the sixteen chunks of a key block `x1` ([128, 128]) against the query block `x`:
    zero, then chunk after chunk added, rows 0–7 first. -/
def acc (x : FVec F S256x128 .f32) (x1 : Vec F S128x128 .f32) : FVec F S256x128 .f32 :=
  addf (addf (addf (addf (addf (addf (addf (addf (addf (addf (addf (addf (addf (addf (addf (addf (zero128)
      (chunk x (View.ld x1 (Rect.unit ![0, 0] S8x128.size inb_S128x128_S8x128_0_0))))
      (chunk x (View.ld x1 (Rect.unit ![8, 0] S8x128.size inb_S128x128_S8x128_8_0))))
      (chunk x (View.ld x1 (Rect.unit ![16, 0] S8x128.size inb_S128x128_S8x128_16_0))))
      (chunk x (View.ld x1 (Rect.unit ![24, 0] S8x128.size inb_S128x128_S8x128_24_0))))
      (chunk x (View.ld x1 (Rect.unit ![32, 0] S8x128.size inb_S128x128_S8x128_32_0))))
      (chunk x (View.ld x1 (Rect.unit ![40, 0] S8x128.size inb_S128x128_S8x128_40_0))))
      (chunk x (View.ld x1 (Rect.unit ![48, 0] S8x128.size inb_S128x128_S8x128_48_0))))
      (chunk x (View.ld x1 (Rect.unit ![56, 0] S8x128.size inb_S128x128_S8x128_56_0))))
      (chunk x (View.ld x1 (Rect.unit ![64, 0] S8x128.size inb_S128x128_S8x128_64_0))))
      (chunk x (View.ld x1 (Rect.unit ![72, 0] S8x128.size inb_S128x128_S8x128_72_0))))
      (chunk x (View.ld x1 (Rect.unit ![80, 0] S8x128.size inb_S128x128_S8x128_80_0))))
      (chunk x (View.ld x1 (Rect.unit ![88, 0] S8x128.size inb_S128x128_S8x128_88_0))))
      (chunk x (View.ld x1 (Rect.unit ![96, 0] S8x128.size inb_S128x128_S8x128_96_0))))
      (chunk x (View.ld x1 (Rect.unit ![104, 0] S8x128.size inb_S128x128_S8x128_104_0))))
      (chunk x (View.ld x1 (Rect.unit ![112, 0] S8x128.size inb_S128x128_S8x128_112_0))))
      (chunk x (View.ld x1 (Rect.unit ![120, 0] S8x128.size inb_S128x128_S8x128_120_0)))

/-- One grid point's effect on the output block `o`: `o` plus the folded accumulator. -/
def step (x0 : Vec F S256x128 .f32) (x1 : Vec F S128x128 .f32) (o : Vec F S256x64 .f32) : FVec F S256x64 .f32 :=
  addf (shapeCast S256x64 o shapeCasts_S256x64_S256x64) (fold (acc (k0_pay4 x0) x1))

theorem pay3_eq : (k0_pay3 : FVec F S256x64 .f32) = zero64 := rfl

theorem pay4_eq (x : Vec F S256x128 .f32) : k0_pay4 x = shapeCast S256x128 x shapeCasts_S256x128_S256x128 := rfl

theorem pay5_eq (x : Vec F S256x128 .f32) (a b c : Vec F S8x128 .f32) :
    k0_pay5 x a b c = addf (addf (addf zero128 (chunk (k0_pay4 x) a)) (chunk (k0_pay4 x) b)) (chunk (k0_pay4 x) c) := rfl

theorem pay6_eq (x acc : FVec F S256x128 .f32) (a b c d : Vec F S8x128 .f32) :
    k0_pay6 x acc a b c d = addf (addf (addf (addf acc (chunk x a)) (chunk x b)) (chunk x c)) (chunk x d) := rfl

theorem pay7_eq (x acc : FVec F S256x128 .f32) (a b c d : Vec F S8x128 .f32) :
    k0_pay7 x acc a b c d = addf (addf (addf (addf acc (chunk x a)) (chunk x b)) (chunk x c)) (chunk x d) := rfl

theorem pay8_eq (x acc : FVec F S256x128 .f32) (a b c d : Vec F S8x128 .f32) :
    k0_pay8 x acc a b c d = addf (addf (addf (addf acc (chunk x a)) (chunk x b)) (chunk x c)) (chunk x d) := rfl

theorem pay1_eq (x acc : FVec F S256x128 .f32) (a : Vec F S8x128 .f32) (o : Vec F S256x64 .f32) :
    k0_pay1 x acc a o = addf (shapeCast S256x64 o shapeCasts_S256x64_S256x64) (fold (addf acc (chunk x a))) := rfl

theorem pay2_eq (x : FVec F S256x128 .f32) (d o : Vec F S256x64 .f32) :
    k0_pay2 x d o = subf (shapeCast S256x64 o shapeCasts_S256x64_S256x64) (diag x d) := rfl

end Cert.KernelIdeal.Vocab

end
-- ==== Proof.Pieces.lean ====
/-
  What the body leaves in the output block, case by case.

  At every grid point the body accumulates, over the sixteen groups of eight packed key rows of the key block, the
  chunk sums against the query block (`acc`), folds the two lane halves and adds the result to the output block
  (`step`).  At the first reduction step the output block was zeroed first; at the last one the diagonal term is
  subtracted afterwards.  The three lemmas below read the pieces the generated runs found as these values.
-/
import proofs.«129454_j29652454212127_2_alg».proof.Proof.Gen.KernelIdeal.Frame
import proofs.«129454_j29652454212127_2_alg».proof.Proof.Vocab
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Vocab

variable {F : FTy → Type} [FloatOps F]

theorem hz : (![0, 0] : Fin 2 → Nat) = fun _ => 0 := funext fun a => by fin_cases a <;> rfl

/-- A middle reduction step: the output block found, plus this point's folded accumulator. -/
theorem out_B (c : Dev nD) (i : grid0.Coords) (a2 : Memref sig .tc .vmem S256x128 .f32) (h2 : a2.IsWhole) (a3 : Memref sig .tc .vmem S128x128 .f32) (h3 : a3.IsWhole) (a4 : Memref sig .tc .vmem S256x64 .f32) (h4 : a4.IsWhole) (a5 : Memref sig .tc .vmem S256x64 .f32) (h5 : a5.IsWhole) (hc0 : ¬cond0_0 i) (hc1 : ¬cond0_1 i)
    (x0 : Vec F S256x128 .f32) (x1 : Vec F S128x128 .f32) (x2 : Vec F S256x64 .f32) (xo : Vec F S256x64 .f32) :
    out0_B_3 c i a2 h2 a3 h3 a4 h4 a5 h5 hc0 hc1 x0 x1 x2 xo = step x0 x1 xo := by
  unfold out0_B_3
  rw [View.read_writes_eq_canon _ _ _ (cover0_B_3 c i a2 h2 a3 h3 a4 h4 a5 h5 hc0 hc1 x0 x1 x2 xo)]
  unfold kernelRun0_B
  dsimp only
  sl_unfold_words
  rw [View.canon_unit_zero hz]
  simp only [View.readAt_eq_ld, h2.read_unread, h3.read_unread, h5.read_unread, View.ld_unit_zero (S := S256x128) hz, View.ld_unit_zero (S := S256x64) hz]
  rfl

/-- The first reduction step: the output block is zeroed, then accumulated into. -/
theorem out_A (c : Dev nD) (i : grid0.Coords) (a2 : Memref sig .tc .vmem S256x128 .f32) (h2 : a2.IsWhole) (a3 : Memref sig .tc .vmem S128x128 .f32) (h3 : a3.IsWhole) (a4 : Memref sig .tc .vmem S256x64 .f32) (h4 : a4.IsWhole) (a5 : Memref sig .tc .vmem S256x64 .f32) (h5 : a5.IsWhole) (hc0 : cond0_0 i) (hc1 : ¬cond0_1 i)
    (x0 : Vec F S256x128 .f32) (x1 : Vec F S128x128 .f32) (x2 : Vec F S256x64 .f32) :
    out0_A_3 c i a2 h2 a3 h3 a4 h4 a5 h5 hc0 hc1 x0 x1 x2 = step x0 x1 zero64 := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S256x64) hz]
  simp only [View.readCov_unit_zero (S := S256x64) _ hz, View.readAt_eq_ld, h2.read_unread, h3.read_unread, View.ld_unit_zero (S := S256x128) hz, View.ld_unit_zero (S := S256x64) hz]
  rfl

/-- The last reduction step: accumulated into, then the diagonal term subtracted. -/
theorem out_C (c : Dev nD) (i : grid0.Coords) (a2 : Memref sig .tc .vmem S256x128 .f32) (h2 : a2.IsWhole) (a3 : Memref sig .tc .vmem S128x128 .f32) (h3 : a3.IsWhole) (a4 : Memref sig .tc .vmem S256x64 .f32) (h4 : a4.IsWhole) (a5 : Memref sig .tc .vmem S256x64 .f32) (h5 : a5.IsWhole) (hc0 : ¬cond0_0 i) (hc1 : cond0_1 i)
    (x0 : Vec F S256x128 .f32) (x1 : Vec F S128x128 .f32) (x2 : Vec F S256x64 .f32) (xo : Vec F S256x64 .f32) :
    out0_C_3 c i a2 h2 a3 h3 a4 h4 a5 h5 hc0 hc1 x0 x1 x2 xo
      = subf (shapeCast S256x64 (step x0 x1 xo) shapeCasts_S256x64_S256x64) (diag (k0_pay4 x0) x2) := by
  unfold out0_C_3
  rw [View.read_writes_eq_canon _ _ _ (cover0_C_3 c i a2 h2 a3 h3 a4 h4 a5 h5 hc0 hc1 x0 x1 x2 xo)]
  unfold kernelRun0_C
  dsimp only
  sl_unfold_words
  rw [View.canon_cons_unit_zero (S := S256x64) hz]
  simp only [View.readCov_unit_zero (S := S256x64) _ hz, View.readAt_eq_ld, h2.read_unread, h3.read_unread, h4.read_unread, h5.read_unread, View.ld_unit_zero (S := S256x128) hz, View.ld_unit_zero (S := S256x64) hz]
  rfl

end Cert.KernelIdeal.Pieces

end
-- ==== Proof.PointValue.lean ====
/-
  The body's arithmetic read at an index, over the extended reals.

  chunk x v (r, l)   = ∑ s < 8, max (x (r, l) + v (s, l)) 0
  acc x x1 (r, l)    = ∑ p < 128, max (x (r, l) + x1 (p, l)) 0     (sixteen chunks of eight rows, first to last)
  fold a (r, h)      = a (r, h) + a (r, 64 + h)
  diag x d (r, h)    = max (x (r, h) + d (r, h)) 0
  Sums are taken over `Finset.range`, arrays read through `at2` (zero outside the array), so that the
  re-indexing of the reduction is plain arithmetic on naturals.
-/
import proofs.«129454_j29652454212127_2_alg».proof.Proof.Vocab
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointValue

open Idealize.ShloMosaic Idealize.ShloMosaic.ValueIdx Idealize.SL.Sem
open Cert.KernelIdeal Cert.KernelIdeal.Gen Cert.KernelIdeal.Vocab

/-- A matrix of extended reals read at natural coordinates; zero outside. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

theorem at2_ix2 {n0 n1 : ℕ} (A : (⟨2, ![n0, n1]⟩ : Shape).Idx → EReal) (a : Fin n0) (b : Fin n1) :
    A (ix2 a b) = at2 A a.val b.val := by
  unfold at2; rw [dif_pos ⟨a.isLt, b.isLt⟩]

/-- The reduced index (r, l) with row s put back is (s, r, l). -/
theorem lift3 (r : Fin 256) (l : Fin 128) (s : Fin (S8x256x128.size 0)) :
    reduces_S8x256x128_S256x128.lift (ix2 r l) s = ix3 (⟨s.val, s.isLt⟩ : Fin 8) r l := by
  funext c; apply Fin.ext
  fin_cases c <;> rfl

/-- The query block broadcast along the eight rows reads the block. -/
theorem bx_apply (x : FVec Ideal S256x128 .f32) (s : Fin 8) (r : Fin 256) (l : Fin 128) :
    broadcastTo S8x256x128 (shapeCast S1x256x128 x shapeCasts_S256x128_S1x256x128) broadcasts_S1x256x128_S8x256x128 (ix3 s r l)
      = x (ix2 r l) := by
  refine (broadcastTo_apply _ broadcasts_S1x256x128_S8x256x128 (ix3 s r l) (ix3 (0 : Fin 1) r l) (fun a => ?_)).trans
    (shapeCast_ab_1ab_apply x shapeCasts_S256x128_S1x256x128 (0 : Fin 1) r l)
  fin_cases a <;> rfl

/-- The eight packed rows broadcast along the query rows read the row. -/
theorem bv_apply (v : Vec Ideal S8x128 .f32) (s : Fin 8) (r : Fin 256) (l : Fin 128) :
    broadcastTo S8x256x128 (shapeCast S8x1x128 (shapeCast S8x128 v shapeCasts_S8x128_S8x128) shapeCasts_S8x128_S8x1x128)
        broadcasts_S8x1x128_S8x256x128 (ix3 s r l)
      = v (ix2 s l) := by
  refine (broadcastTo_apply _ broadcasts_S8x1x128_S8x256x128 (ix3 s r l) (ix3 s (0 : Fin 1) l) (fun a => ?_)).trans ?_
  · fin_cases a <;> rfl
  · rw [shapeCast_self]
    refine shapeCast_apply v shapeCasts_S8x128_S8x1x128 (ix3 s (0 : Fin 1) l) (ix2 s l) ?_
    rw [Shape.rowMajor_val_three, Shape.rowMajor_val_two]
    show s.val * 128 + l.val = (s.val * 1 + 0) * 128 + l.val
    omega

/-- One chunk at (r, l): the eight rows' terms, summed. -/
theorem chunk_apply (x : FVec Ideal S256x128 .f32) (v : Vec Ideal S8x128 .f32) (r : Fin 256) (l : Fin 128) :
    chunk x v (ix2 r l) = ∑ s : Fin 8, max (x (ix2 r l) + v (ix2 s l)) 0 := by
  unfold chunk
  refine (Ideal.multiReduction_add_single _ 0x00000000#32 reduces_S8x256x128_S256x128 (.inl rfl) rfl (ix2 r l)).trans ?_
  show (∑ s : Fin 8, _) = _
  refine Finset.sum_congr rfl fun s _ => ?_
  rw [lift3 r l s]
  show max (broadcastTo S8x256x128 _ _ (ix3 s r l) + broadcastTo S8x256x128 _ _ (ix3 s r l)) (Ideal.ofBits .f32 0x00000000#32) = _
  rw [bx_apply, bv_apply, Ideal.ofBits_zero_f32]

/-- Rows o … o+7 of the key block. -/
theorem ld_rows (x1 : Vec Ideal S128x128 .f32) (o : ℕ)
    (inb : ∀ a, (![o, 0] : Fin 2 → ℕ) a + S8x128.size a ≤ S128x128.size a) (s : Fin 8) (l : Fin 128) (p : Fin 128)
    (hp : p.val = o + s.val) :
    View.ld x1 (Rect.unit ![o, 0] S8x128.size inb) (ix2 s l) = x1 (ix2 p l) := by
  show x1 ((Rect.unit (s := S128x128) ![o, 0] S8x128.size inb).idx (ix2 s l)) = x1 (ix2 p l)
  refine congrArg x1 (funext fun a => Fin.ext ?_)
  match a with
  | ⟨0, _⟩ => show o + 1 * s.val = p.val; omega
  | ⟨1, _⟩ => show 0 + 1 * l.val = l.val; omega

/-- One chunk of rows o … o+7 of the key block, at (r, l), over naturals. -/
theorem chunk_rows (x : FVec Ideal S256x128 .f32) (x1 : Vec Ideal S128x128 .f32) (o : ℕ)
    (inb : ∀ a, (![o, 0] : Fin 2 → ℕ) a + S8x128.size a ≤ S128x128.size a) (ho : o + 8 ≤ 128) (r : Fin 256) (l : Fin 128) :
    chunk x (View.ld x1 (Rect.unit ![o, 0] S8x128.size inb)) (ix2 r l)
      = ∑ s ∈ Finset.range 8, max (x (ix2 r l) + at2 x1 (o + s) l.val) 0 := by
  rw [chunk_apply, ← Fin.sum_univ_eq_sum_range (fun s => max (x (ix2 r l) + at2 x1 (o + s) l.val) 0) 8]
  refine Finset.sum_congr rfl fun s _ => ?_
  have hs := s.isLt
  rw [ld_rows x1 o inb s l ⟨o + s.val, by omega⟩ rfl, at2_ix2 x1]

/-- The sum over a range of 16 · 8 terms, chunk by chunk. -/
theorem sum_range_128 (f : ℕ → EReal) :
    ∑ p ∈ Finset.range 128, f p = 0 + (∑ s ∈ Finset.range 8, f (0 + s)) + (∑ s ∈ Finset.range 8, f (8 + s)) + (∑ s ∈ Finset.range 8, f (16 + s)) + (∑ s ∈ Finset.range 8, f (24 + s)) + (∑ s ∈ Finset.range 8, f (32 + s)) + (∑ s ∈ Finset.range 8, f (40 + s)) + (∑ s ∈ Finset.range 8, f (48 + s)) + (∑ s ∈ Finset.range 8, f (56 + s)) + (∑ s ∈ Finset.range 8, f (64 + s)) + (∑ s ∈ Finset.range 8, f (72 + s)) + (∑ s ∈ Finset.range 8, f (80 + s)) + (∑ s ∈ Finset.range 8, f (88 + s)) + (∑ s ∈ Finset.range 8, f (96 + s)) + (∑ s ∈ Finset.range 8, f (104 + s)) + (∑ s ∈ Finset.range 8, f (112 + s)) + (∑ s ∈ Finset.range 8, f (120 + s)) := by
  have h : ∀ n, ∑ p ∈ Finset.range (n + 8), f p = ∑ p ∈ Finset.range n, f p + ∑ s ∈ Finset.range 8, f (n + s) :=
    fun n => Finset.sum_range_add f n 8
  rw [show (128 : ℕ) = 120 + 8 from rfl, h, show (120 : ℕ) = 112 + 8 from rfl, h, show (112 : ℕ) = 104 + 8 from rfl, h,
    show (104 : ℕ) = 96 + 8 from rfl, h, show (96 : ℕ) = 88 + 8 from rfl, h, show (88 : ℕ) = 80 + 8 from rfl, h,
    show (80 : ℕ) = 72 + 8 from rfl, h, show (72 : ℕ) = 64 + 8 from rfl, h, show (64 : ℕ) = 56 + 8 from rfl, h,
    show (56 : ℕ) = 48 + 8 from rfl, h, show (48 : ℕ) = 40 + 8 from rfl, h, show (40 : ℕ) = 32 + 8 from rfl, h,
    show (32 : ℕ) = 24 + 8 from rfl, h, show (24 : ℕ) = 16 + 8 from rfl, h, show (16 : ℕ) = 8 + 8 from rfl, h,
    show (8 : ℕ) = 0 + 8 from rfl, h, Finset.sum_range_zero]

/-- The accumulator at (r, l): every packed row of the key block against the query block's entry. -/
theorem acc_apply (x : FVec Ideal S256x128 .f32) (x1 : Vec Ideal S128x128 .f32) (r : Fin 256) (l : Fin 128) :
    acc x x1 (ix2 r l) = ∑ p ∈ Finset.range 128, max (x (ix2 r l) + at2 x1 p l.val) 0 := by
  rw [sum_range_128 (fun p => max (x (ix2 r l) + at2 x1 p l.val) 0)]
  unfold acc
  simp only [addf_apply]
  rw [chunk_rows x x1 0 inb_S128x128_S8x128_0_0 (by omega) r l,
    chunk_rows x x1 8 inb_S128x128_S8x128_8_0 (by omega) r l,
    chunk_rows x x1 16 inb_S128x128_S8x128_16_0 (by omega) r l,
    chunk_rows x x1 24 inb_S128x128_S8x128_24_0 (by omega) r l,
    chunk_rows x x1 32 inb_S128x128_S8x128_32_0 (by omega) r l,
    chunk_rows x x1 40 inb_S128x128_S8x128_40_0 (by omega) r l,
    chunk_rows x x1 48 inb_S128x128_S8x128_48_0 (by omega) r l,
    chunk_rows x x1 56 inb_S128x128_S8x128_56_0 (by omega) r l,
    chunk_rows x x1 64 inb_S128x128_S8x128_64_0 (by omega) r l,
    chunk_rows x x1 72 inb_S128x128_S8x128_72_0 (by omega) r l,
    chunk_rows x x1 80 inb_S128x128_S8x128_80_0 (by omega) r l,
    chunk_rows x x1 88 inb_S128x128_S8x128_88_0 (by omega) r l,
    chunk_rows x x1 96 inb_S128x128_S8x128_96_0 (by omega) r l,
    chunk_rows x x1 104 inb_S128x128_S8x128_104_0 (by omega) r l,
    chunk_rows x x1 112 inb_S128x128_S8x128_112_0 (by omega) r l,
    chunk_rows x x1 120 inb_S128x128_S8x128_120_0 (by omega) r l]
  show Ideal.ofBits .f32 0x00000000#32 + _ + _ + _ + _ + _ + _ + _ + _ + _ + _ + _ + _ + _ + _ + _ + _ = _
  rw [Ideal.ofBits_zero_f32]

/-- The two lane halves, added. -/
theorem fold_apply (a : FVec Ideal S256x128 .f32) (r : Fin 256) (h : Fin 64) :
    fold a (ix2 r h) = at2 a r.val h.val + at2 a r.val (64 + h.val) := by
  have hh := h.isLt
  unfold fold
  rw [addf_apply, slice2_axis1_apply 0 a slices_S256x128_o0_0_S256x64 r h ⟨h.val, by omega⟩ (by show h.val = 0 + h.val; omega),
    slice2_axis1_apply 64 a slices_S256x128_o0_64_S256x64 r h ⟨64 + h.val, by omega⟩ rfl, at2_ix2 a, at2_ix2 a]

/-- The diagonal term at (r, h). -/
theorem diag_apply (x : FVec Ideal S256x128 .f32) (d : Vec Ideal S256x64 .f32) (r : Fin 256) (h : Fin 64) :
    diag x d (ix2 r h) = max (at2 x r.val h.val + at2 d r.val h.val) 0 := by
  have hh := h.isLt
  unfold diag
  rw [maximumf_apply, addf_apply, broadcast_apply, shapeCast_self,
    slice2_axis1_apply 0 x slices_S256x128_o0_0_S256x64 r h ⟨h.val, by omega⟩ (by show h.val = 0 + h.val; omega), at2_ix2 x, at2_ix2 d]
  show max _ (Ideal.ofBits .f32 0x00000000#32) = _
  rw [Ideal.ofBits_zero_f32]

theorem at2_of_lt {n0 n1 : ℕ} (A : (⟨2, ![n0, n1]⟩ : Shape).Idx → EReal) (a b : ℕ) (ha : a < n0) (hb : b < n1) :
    at2 A a b = A (ix2 ⟨a, ha⟩ ⟨b, hb⟩) := by
  unfold at2; rw [dif_pos ⟨ha, hb⟩]

/-- What one grid point adds to the output block at (r, h): the point's 128 packed key rows against the query
    block's entry, in both lane halves. -/
def part (x0 : S256x128.Idx → EReal) (x1 : S128x128.Idx → EReal) (r h : ℕ) : EReal :=
  ∑ p ∈ Finset.range 128, max (at2 x0 r h + at2 x1 p h) 0
    + ∑ p ∈ Finset.range 128, max (at2 x0 r (64 + h) + at2 x1 p (64 + h)) 0

/-- The same over the whole arrays: query row R against the packed key rows 128 j … 128 j + 127. -/
def pt (A7 : S2048x128.Idx → EReal) (A8 : S1024x128.Idx → EReal) (R j h : ℕ) : EReal :=
  ∑ p ∈ Finset.range 128, max (at2 A7 R h + at2 A8 (128 * j + p) h) 0
    + ∑ p ∈ Finset.range 128, max (at2 A7 R (64 + h) + at2 A8 (128 * j + p) (64 + h)) 0

theorem at2_zero64 (r h : ℕ) (hr : r < 256) (hh : h < 64) : at2 (zero64 : FVec Ideal S256x64 .f32) r h = 0 := by
  rw [at2_of_lt _ r h hr hh]
  show Ideal.ofBits .f32 0x00000000#32 = 0
  exact Ideal.ofBits_zero_f32

/-- One grid point's effect at (r, h): the block found plus the point's part. -/
theorem step_at (x0 : Vec Ideal S256x128 .f32) (x1 : Vec Ideal S128x128 .f32) (o : Vec Ideal S256x64 .f32) (r h : ℕ)
    (hr : r < 256) (hh : h < 64) :
    at2 (step x0 x1 o) r h = at2 o r h + part x0 x1 r h := by
  rw [at2_of_lt _ r h hr hh, at2_of_lt o r h hr hh]
  unfold step part
  rw [addf_apply, shapeCast_self, fold_apply]
  dsimp only
  rw [at2_of_lt (acc (k0_pay4 x0) x1) r h hr (by omega), at2_of_lt (acc (k0_pay4 x0) x1) r (64 + h) hr (by omega),
    acc_apply, acc_apply, pay4_eq, shapeCast_self, at2_ix2 x0, at2_ix2 x0]

/-- The last reduction step's effect at (r, h): the step, then the diagonal term subtracted. -/
theorem last_at (x0 : Vec Ideal S256x128 .f32) (x1 : Vec Ideal S128x128 .f32) (x2 o : Vec Ideal S256x64 .f32) (r h : ℕ)
    (hr : r < 256) (hh : h < 64) :
    at2 (subf (shapeCast S256x64 (step x0 x1 o) shapeCasts_S256x64_S256x64) (diag (k0_pay4 x0) x2)) r h
      = (at2 o r h + part x0 x1 r h) - max (at2 x0 r h + at2 x2 r h) 0 := by
  rw [← step_at x0 x1 o r h hr hh, at2_of_lt _ r h hr hh, at2_of_lt (step x0 x1 o) r h hr hh]
  rw [subf_apply, shapeCast_self, diag_apply, pay4_eq, shapeCast_self]

end Cert.KernelIdeal.PointValue

end
-- ==== Proof.Accum.lean ====
/-
  The accumulation across the grid.

  Grid point t = 8 i + j works on query rows 256 i … 256 i + 255 and on packed key rows 128 j … 128 j + 127; the
  output block of row block i is carried from j = 0 to j = 7 and written back after j = 7.  By induction on the
  point, after step j < 7 the block holds, at (r, h), the parts of steps 0 … j; after step 7 all eight parts less
  the diagonal term.  So the written-back blocks are the blocks of ONE function `Gk` of the three arrays the
  region reads, and they tile the output array.
-/
import proofs.«129454_j29652454212127_2_alg».proof.Proof.Gen.KernelIdeal.Frame
import proofs.«129454_j29652454212127_2_alg».proof.Proof.Pieces
import proofs.«129454_j29652454212127_2_alg».proof.Proof.PointValue
import Idealize.ShloMosaic.Lib.Pipeline.Value

set_option maxRecDepth 16384

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Vocab Cert.KernelIdeal.Pieces Cert.KernelIdeal.PointValue

variable (m : (ℓ : Loc nD τ sig) → Buf (Elt Ideal) ℓ)

/-- The three arrays the region reads, as it finds them: the doubled biased query projections [2048, 128], the
    packed key projections [1024, 128], the key projections [2048, 64]. -/
abbrev A7 (c : Dev nD) : S2048x128.Idx → EReal := V m c main_v7
abbrev A8 (c : Dev nD) : S1024x128.Idx → EReal := V m c main_v8
abbrev A3 (c : Dev nD) : S2048x64.Idx → EReal := V m c main_v3

/-- The printed index maps, decided over the grid: the query, diagonal and output windows follow the row block
    t / 8, the packed key window the reduction step t % 8; none moves along the lanes. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The query block at point t is rows 256 (t / 8) … of the doubled array. -/
theorem iblk0_at (c : Dev nD) (t : Fin cfg0.N) (r l : ℕ) (hr : r < 256) (hl : l < 128) :
    at2 (iblk m c 0 t : Vec Ideal S256x128 .f32) r l = at2 (A7 m c) (256 * (t.val / 8) + r) l := by
  have hN : t.val < 64 := lt_of_lt_of_eq t.isLt N_0
  obtain ⟨e0, e1, -⟩ := idx_facts t
  rw [at2_of_lt _ r l hr hl, at2_of_lt (A7 m c) (256 * (t.val / 8) + r) l (by omega) hl]
  unfold iblk
  rw [View.read_apply]
  show V m c main_v7 _ = V m c main_v7 _
  refine congrArg (V m c main_v7) (funext fun a => Fin.ext ?_)
  match a with
  | ⟨0, _⟩ => show win0_0.index t (0 : Fin 2) * 256 + 1 * r = 256 * (t.val / 8) + r; omega
  | ⟨1, _⟩ => show win0_0.index t (1 : Fin 2) * 128 + 1 * l = l; omega

/-- The packed key block at point t is rows 128 (t % 8) … of the packed array. -/
theorem iblk1_at (c : Dev nD) (t : Fin cfg0.N) (p l : ℕ) (hp : p < 128) (hl : l < 128) :
    at2 (iblk m c 1 t : Vec Ideal S128x128 .f32) p l = at2 (A8 m c) (128 * (t.val % 8) + p) l := by
  have hN : t.val < 64 := lt_of_lt_of_eq t.isLt N_0
  obtain ⟨-, -, e0, e1, -⟩ := idx_facts t
  rw [at2_of_lt _ p l hp hl, at2_of_lt (A8 m c) (128 * (t.val % 8) + p) l (by omega) hl]
  unfold iblk
  rw [View.read_apply]
  show V m c main_v8 _ = V m c main_v8 _
  refine congrArg (V m c main_v8) (funext fun a => Fin.ext ?_)
  match a with
  | ⟨0, _⟩ => show win0_1.index t (0 : Fin 2) * 128 + 1 * p = 128 * (t.val % 8) + p; omega
  | ⟨1, _⟩ => show win0_1.index t (1 : Fin 2) * 128 + 1 * l = l; omega

/-- The diagonal block at point t is rows 256 (t / 8) … of the key projections. -/
theorem iblk2_at (c : Dev nD) (t : Fin cfg0.N) (r h : ℕ) (hr : r < 256) (hh : h < 64) :
    at2 (iblk m c 2 t : Vec Ideal S256x64 .f32) r h = at2 (A3 m c) (256 * (t.val / 8) + r) h := by
  have hN : t.val < 64 := lt_of_lt_of_eq t.isLt N_0
  obtain ⟨-, -, -, -, e0, e1, -⟩ := idx_facts t
  rw [at2_of_lt _ r h hr hh, at2_of_lt (A3 m c) (256 * (t.val / 8) + r) h (by omega) hh]
  unfold iblk
  rw [View.read_apply]
  show V m c main_v3 _ = V m c main_v3 _
  refine congrArg (V m c main_v3) (funext fun a => Fin.ext ?_)
  match a with
  | ⟨0, _⟩ => show win0_2.index t (0 : Fin 2) * 256 + 1 * r = 256 * (t.val / 8) + r; omega
  | ⟨1, _⟩ => show win0_2.index t (1 : Fin 2) * 64 + 1 * h = h; omega

/-- A point's part, over the whole arrays. -/
theorem part_blocks (c : Dev nD) (t : Fin cfg0.N) (r h : ℕ) (hr : r < 256) (hh : h < 64) :
    part (iblk m c 0 t : Vec Ideal S256x128 .f32) (iblk m c 1 t : Vec Ideal S128x128 .f32) r h
      = pt (A7 m c) (A8 m c) (256 * (t.val / 8) + r) (t.val % 8) h := by
  unfold part pt
  rw [iblk0_at m c t r h hr (by omega), iblk0_at m c t r (64 + h) hr (by omega)]
  congr 1
  · exact Finset.sum_congr rfl fun p hp => by rw [iblk1_at m c t p h (Finset.mem_range.mp hp) (by omega)]
  · exact Finset.sum_congr rfl fun p hp => by rw [iblk1_at m c t p (64 + h) (Finset.mem_range.mp hp) (by omega)]

/-- After reduction step j < 7 of row block i the output block holds the parts of steps 0 … j. -/
theorem outsAt_at (c : Dev nD) : ∀ (n : ℕ) (hn : n < cfg0.N), n % 8 ≠ 7 → ∀ (r h : ℕ), r < 256 → h < 64 →
    at2 (outsAt0 m c n hn) r h = ∑ j ∈ Finset.range (n % 8 + 1), pt (A7 m c) (A8 m c) (256 * (n / 8) + r) j h
  | 0, hn, _, r, h, hr, hh => by
    rw [outsAt0_A m c ⟨0, hn⟩ rfl (by show ¬0 % 8 = 7; omega), out_A, step_at _ _ _ r h hr hh, part_blocks m c ⟨0, hn⟩ r h hr hh,
      at2_zero64 r h hr hh, zero_add]
    show _ = ∑ j ∈ Finset.range 1, _
    rw [Finset.sum_range_one]
    rfl
  | n + 1, hn, h7, r, h, hr, hh => by
    have hN : n + 1 < 64 := lt_of_lt_of_eq hn N_0
    by_cases h0 : (n + 1) % 8 = 0
    · rw [outsAt0_A m c ⟨n + 1, hn⟩ h0 h7, out_A, step_at _ _ _ r h hr hh, part_blocks m c ⟨n + 1, hn⟩ r h hr hh,
        at2_zero64 r h hr hh, zero_add]
      show pt _ _ _ ((n + 1) % 8) h = _
      rw [h0, Finset.sum_range_one]
    · rw [outsAt0_B m c ⟨n + 1, hn⟩ h0 h7, out_B, step_at _ _ _ r h hr hh, part_blocks m c ⟨n + 1, hn⟩ r h hr hh]
      show at2 (outsAt0 m c n _) r h + pt _ _ (256 * ((n + 1) / 8) + r) ((n + 1) % 8) h = _
      rw [outsAt_at c n _ (by omega) r h hr hh]
      have e1 : (n + 1) % 8 = n % 8 + 1 := by omega
      have e2 : (n + 1) / 8 = n / 8 := by omega
      rw [e1, e2, Finset.sum_range_succ _ (n % 8 + 1)]

/-- After the last reduction step of a row block the output block holds all eight parts less the diagonal term. -/
theorem flush_at (c : Dev nD) (t : Fin cfg0.N) (h7 : t.val % 8 = 7) (r h : ℕ) (hr : r < 256) (hh : h < 64) :
    at2 (outsAt0 m c t.val t.isLt) r h
      = (∑ j ∈ Finset.range 8, pt (A7 m c) (A8 m c) (256 * (t.val / 8) + r) j h)
        - max (at2 (A7 m c) (256 * (t.val / 8) + r) h + at2 (A3 m c) (256 * (t.val / 8) + r) h) 0 := by
  have hN : t.val < 64 := lt_of_lt_of_eq t.isLt N_0
  rw [outsAt0_C m c t (by omega) h7, out_C, last_at _ _ _ _ r h hr hh, part_blocks m c t r h hr hh,
    iblk0_at m c t r h hr (by omega), iblk2_at m c t r h hr hh, outsAt_at m c (t.val - 1) _ (by omega) r h hr hh]
  have e1 : (t.val - 1) % 8 + 1 = 7 := by omega
  have e2 : (t.val - 1) / 8 = t.val / 8 := by omega
  rw [e1, e2, h7, ← Finset.sum_range_succ _ 7]

/-- What the output array ends holding, as ONE function of the three arrays the region reads: at (R, h) the eight
    parts of query row R less the diagonal term. -/
def Gk (a7 : S2048x128.Idx → EReal) (a8 : S1024x128.Idx → EReal) (a3 : S2048x64.Idx → EReal) : S2048x64.Idx → EReal :=
  fun i => (∑ j ∈ Finset.range 8, pt a7 a8 (i 0).val j (i 1).val) - max (at2 a7 (i 0).val (i 1).val + at2 a3 (i 0).val (i 1).val) 0

/-- What a flushing point writes back is its block of `Gk`. -/
theorem flushed_eq (c : Dev nD) (t : Fin cfg0.N) (hf : (cfg0.win 3).flush t = true) :
    (dats m 0 c).flushed 3 t = ((cfg0.win 3).blk t).view.read (Elt Ideal) (Gk (A7 m c) (A8 m c) (A3 m c)) := by
  have hN : t.val < 64 := lt_of_lt_of_eq t.isLt N_0
  have h7 : t.val % 8 = 7 := (flush0_3 t).mp hf
  obtain ⟨-, -, -, -, -, -, e0, e1⟩ := idx_facts t
  show (cfg0.win 3).cut (grid0.coords t) ((dats m 0 c).after 3 t) = _
  rw [after0_3]
  funext j
  obtain ⟨r, h, rfl⟩ : ∃ (r : Fin 256) (h : Fin 64), j = ix2 r h := ⟨j 0, j 1, eq_ix2 j⟩
  have hr := r.isLt
  have hh := h.isLt
  show outsAt0 m c t.val t.isLt (ix2 r h) = Gk (A7 m c) (A8 m c) (A3 m c) (((cfg0.win 3).blk t).view.emb (ix2 r h))
  have he : ((cfg0.win 3).blk t).view.emb (ix2 r h) = ix2 (⟨256 * (t.val / 8) + r.val, by omega⟩ : Fin 2048) h := by
    funext a; apply Fin.ext
    match a with
    | ⟨0, _⟩ => show win0_3.index t (0 : Fin 2) * 256 + 1 * r.val = 256 * (t.val / 8) + r.val; omega
    | ⟨1, _⟩ => show win0_3.index t (1 : Fin 2) * 64 + 1 * h.val = h.val; omega
  rw [he, at2_ix2 (outsAt0 m c t.val t.isLt) r h, flush_at m c t h7 r.val h.val hr hh]
  rfl

/-- An index of the output array is in point t's block iff each coordinate is in the block's range. -/
theorem mem_blk (t : Fin cfg0.N) (i : S2048x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v9).slice (win0_3.rect t)).set ↔ _
  rw [View.set_slice_whole, Rect.mem_set_unit]
  exact Iff.rfl

/-- Row R of the output array is written back by the last reduction step of its row block. -/
theorem cover (i : S2048x64.Idx) : ∃ t : Fin cfg0.N, (cfg0.win 3).flush t = true ∧ i ∈ ((cfg0.win 3).blk t).view.set := by
  have hi0 : (i 0).val < 2048 := (i 0).isLt
  have hi1 : (i 1).val < 64 := (i 1).isLt
  have hN : cfg0.N = 64 := N_0
  let t : Fin cfg0.N := ⟨8 * ((i 0).val / 256) + 7, by rw [hN]; omega⟩
  have ht : t.val = 8 * ((i 0).val / 256) + 7 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 64 ≤ (i 1).val ∧ (i 1).val < win0_3.index t (1 : Fin 2) * 64 + 64; omega

/-- So the output array ends holding `Gk` of the three arrays. -/
theorem final (c : Dev nD) : (dats m 0 c).arrAt 3 cfg0.N = Gk (A7 m c) (A8 m c) (A3 m c) :=
  (dats m 0 c).arrAt_eq_of_cover 3 (Gk (A7 m c) (A8 m c) (A3 m c)) (flushed_eq m c) cover

end Cert.KernelIdeal.Accum

end
-- ==== Proof.HostSide.lean ====
/-
  The host operations around the region, on the kernel's side.

  Before the region: X1 and X2, the projections of the messages by the two halves of W1; X1b = X1 + b1 (the bias
  broadcast along the rows); the region's three arrays are X1b written twice side by side, X2 re-read as
  [1024, 128] (packed row q holds key rows 2 q and 2 q + 1 side by side), and X2 itself.
  After the region: one fixed chain `tail` (the projection by W2, plus 2047 · b2, over 2047) of the region's output.
-/
import proofs.«129454_j29652454212127_2_alg».proof.Proof.Accum
import Idealize.ShloMosaic.Lib.StableHlo.Run
import Idealize.ShloMosaic.Lib.Pipeline.Value
import Idealize.ShloMosaic.Lib.ValueIdx

set_option maxRecDepth 16384

noncomputable section

namespace Cert.KernelIdeal.HostSide

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.PointValue Cert.KernelIdeal.Accum

/-- The messages projected by the first half of W1's columns. -/
def X1 (a0 : FVec Ideal S2048x8 .f32) (a1 : FVec Ideal S64x16 .f32) : FVec Ideal S2048x64 .f32 :=
  Host.dotGeneral (F := Ideal) dot_S2048x8_S64x8_S2048x64_1_1_0_0_n_n none a0 (extractStridedSlice S64x8 ![0, 0] a1 slices_S64x16_S64x8_0_0)

/-- The messages projected by the second half of W1's columns. -/
def X2 (a0 : FVec Ideal S2048x8 .f32) (a1 : FVec Ideal S64x16 .f32) : FVec Ideal S2048x64 .f32 :=
  Host.dotGeneral (F := Ideal) dot_S2048x8_S64x8_S2048x64_1_1_0_0_n_n none a0 (extractStridedSlice S64x8 ![0, 8] a1 slices_S64x16_S64x8_0_8)

/-- X1 with the bias added along the rows. -/
def X1b (a0 : FVec Ideal S2048x8 .f32) (a1 : FVec Ideal S64x16 .f32) (b1 : FVec Ideal S64 .f32) : FVec Ideal S2048x64 .f32 :=
  addf (X1 a0 a1) (broadcastInDim S2048x64 ![0, 1] bcast_S1x64_S2048x64_0_1 (broadcastInDim S1x64 ![1] bcast_S64_S1x64_1 b1))

/-- The host operations after the region, as one function of the region's output, W2 and b2. -/
def tail (o : FVec Ideal S2048x64 .f32) (w2 : FVec Ideal S8x64 .f32) (b2 : FVec Ideal S8 .f32) : FVec Ideal S2048x8 .f32 :=
  Host.divf (F := Ideal)
    (addf (Host.dotGeneral (F := Ideal) dot_S2048x64_S8x64_S2048x8_1_1_0_0_n_n none o w2)
      (broadcastInDim S2048x8 ![0, 1] bcast_S1x8_S2048x8_0_1
        (broadcastInDim S1x8 ![1] bcast_S8_S1x8_1
          (mulf (broadcastInDim S8 ![] bcast_S_S8 (constant (F := Ideal) S_ .f32 0x44FFE000#32)) b2))))
    (broadcastInDim S2048x8 ![] bcast_S_S2048x8 (constant (F := Ideal) S_ .f32 0x44FFE000#32))

variable (m : (ℓ : Loc nD τ sig) → Buf (Elt Ideal) ℓ) (ρ : Dev nD → PrngReg)

/-- The region finds X1b written twice side by side, -/
theorem V7_eq (c : Dev nD) : (V m c main_v7 : FVec Ideal S2048x128 .f32)
    = concatenate S2048x128 1
        [⟨S2048x64, X1b (m ((c : Thread nD τ).loc main_arg0)) (m ((c : Thread nD τ).loc main_arg1)) (m ((c : Thread nD τ).loc main_arg2))⟩,
         ⟨S2048x64, X1b (m ((c : Thread nD τ).loc main_arg0)) (m ((c : Thread nD τ).loc main_arg1)) (m ((c : Thread nD τ).loc main_arg2))⟩]
        concatenates_S2048x64_S2048x64_S2048x128_d1 := by
  show StableHlo.after hostOps0 (fun b => m (c, b)) (Proc.devRef .tc main_v7) = _
  after_results
  rfl

/-- X2 re-read as [1024, 128], -/
theorem V8_eq (c : Dev nD) : (V m c main_v8 : FVec Ideal S1024x128 .f32)
    = shapeCast S1024x128 (X2 (m ((c : Thread nD τ).loc main_arg0)) (m ((c : Thread nD τ).loc main_arg1))) shapeCasts_S2048x64_S1024x128 := by
  show StableHlo.after hostOps0 (fun b => m (c, b)) (Proc.devRef .tc main_v8) = _
  after_results
  rfl

/-- and X2 itself. -/
theorem V3_eq (c : Dev nD) : (V m c main_v3 : FVec Ideal S2048x64 .f32)
    = X2 (m ((c : Thread nD τ).loc main_arg0)) (m ((c : Thread nD τ).loc main_arg1)) := by
  show StableHlo.after hostOps0 (fun b => m (c, b)) (Proc.devRef .tc main_v3) = _
  after_results
  rfl

/-- X1b at (R, h): X1 there plus the bias of hidden unit h. -/
theorem X1b_at (a0 : FVec Ideal S2048x8 .f32) (a1 : FVec Ideal S64x16 .f32) (b1 : FVec Ideal S64 .f32) (R h : ℕ)
    (hR : R < 2048) (hh : h < 64) :
    at2 (X1b a0 a1 b1) R h = at2 (X1 a0 a1) R h + b1 (ix1 ⟨h, hh⟩) := by
  rw [at2_of_lt _ R h hR hh, at2_of_lt (X1 a0 a1) R h hR hh]
  unfold X1b
  rw [addf_apply]
  refine congrArg _ ?_
  refine (broadcastInDim_apply ![0, 1] bcast_S1x64_S2048x64_0_1 _ (ix2 ⟨R, hR⟩ ⟨h, hh⟩) (ix2 (0 : Fin 1) ⟨h, hh⟩) (fun a => ?_)).trans
    (broadcastInDim_apply ![1] bcast_S64_S1x64_1 b1 (ix2 (0 : Fin 1) ⟨h, hh⟩) (ix1 ⟨h, hh⟩) (fun a => ?_))
  · fin_cases a <;> rfl
  · fin_cases a <;> rfl

/-- The doubled array's first half is X1b, -/
theorem A7_lo (c : Dev nD) (R h : ℕ) (hR : R < 2048) (hh : h < 64) :
    at2 (A7 m c) R h = at2 (X1b (m ((c : Thread nD τ).loc main_arg0)) (m ((c : Thread nD τ).loc main_arg1)) (m ((c : Thread nD τ).loc main_arg2))) R h := by
  rw [at2_of_lt (A7 m c) R h hR (by omega), at2_of_lt _ R h hR hh]
  show (V m c main_v7 : FVec Ideal S2048x128 .f32) _ = _
  rw [V7_eq]
  exact concatenate_pair_apply_left (t := S2048x128) (s₁ := S2048x64) (s₂ := S2048x64) (1 : Fin 2) _ _ concatenates_S2048x64_S2048x64_S2048x128_d1 (ix2 ⟨R, hR⟩ ⟨h, by omega⟩) rfl
    (ix2 ⟨R, hR⟩ ⟨h, hh⟩) (fun b => by fin_cases b <;> rfl)

/-- and so is its second half. -/
theorem A7_hi (c : Dev nD) (R h : ℕ) (hR : R < 2048) (hh : h < 64) :
    at2 (A7 m c) R (64 + h) = at2 (X1b (m ((c : Thread nD τ).loc main_arg0)) (m ((c : Thread nD τ).loc main_arg1)) (m ((c : Thread nD τ).loc main_arg2))) R h := by
  rw [at2_of_lt (A7 m c) R (64 + h) hR (by omega), at2_of_lt _ R h hR hh]
  show (V m c main_v7 : FVec Ideal S2048x128 .f32) _ = _
  rw [V7_eq]
  refine concatenate_pair_apply_right (t := S2048x128) (s₁ := S2048x64) (s₂ := S2048x64) (1 : Fin 2) _ _ concatenates_S2048x64_S2048x64_S2048x128_d1 (ix2 ⟨R, hR⟩ ⟨64 + h, by omega⟩) rfl rfl
    (ix2 ⟨R, hR⟩ ⟨h, hh⟩) (fun b hb => ?_) ?_
  · fin_cases b
    · rfl
    · exact absurd rfl hb
  · show h + 64 = 64 + h
    omega

/-- Packed row q holds key row 2 q in its first half, -/
theorem A8_lo (c : Dev nD) (q h : ℕ) (hq : q < 1024) (hh : h < 64) :
    at2 (A8 m c) q h = at2 (X2 (m ((c : Thread nD τ).loc main_arg0)) (m ((c : Thread nD τ).loc main_arg1))) (2 * q) h := by
  rw [at2_of_lt (A8 m c) q h hq (by omega), at2_of_lt _ (2 * q) h (by omega) hh]
  show (V m c main_v8 : FVec Ideal S1024x128 .f32) _ = _
  rw [V8_eq]
  refine shapeCast_apply _ shapeCasts_S2048x64_S1024x128 _ _ ?_
  rw [Shape.rowMajor_val_two, Shape.rowMajor_val_two]
  show 2 * q * 64 + h = q * 128 + h
  omega

/-- and key row 2 q + 1 in its second half. -/
theorem A8_hi (c : Dev nD) (q h : ℕ) (hq : q < 1024) (hh : h < 64) :
    at2 (A8 m c) q (64 + h) = at2 (X2 (m ((c : Thread nD τ).loc main_arg0)) (m ((c : Thread nD τ).loc main_arg1))) (2 * q + 1) h := by
  rw [at2_of_lt (A8 m c) q (64 + h) hq (by omega), at2_of_lt _ (2 * q + 1) h (by omega) hh]
  show (V m c main_v8 : FVec Ideal S1024x128 .f32) _ = _
  rw [V8_eq]
  refine shapeCast_apply _ shapeCasts_S2048x64_S1024x128 _ _ ?_
  rw [Shape.rowMajor_val_two, Shape.rowMajor_val_two]
  show (2 * q + 1) * 64 + h = q * 128 + (64 + h)
  omega

/-- The diagonal window's array is X2. -/
theorem A3_eq (c : Dev nD) : A3 m c = X2 (m ((c : Thread nD τ).loc main_arg0)) (m ((c : Thread nD τ).loc main_arg1)) := V3_eq m c

/-- @main's result: the tail of what the region's output array ends holding. -/
theorem tail_eq (c : Dev nD) : Pipeline.afterTail₀ cfgs (dats m) 0 (V0 m) [hostOps1] c main_v17
    = tail (Gk (A7 m c) (A8 m c) (A3 m c)) (m ((c : Thread nD τ).loc main_arg3)) (m ((c : Thread nD τ).loc main_arg4)) := by
  unfold Pipeline.afterTail₀
  show StableHlo.after hostOps1 _ (Proc.devRef .tc main_v17) = _
  after_results
  have e9 : Pipeline.withArrays (cfgs 0).spec c (V0 m c) (fun w => (dats m 0 c).arrAt w (cfgs 0).N) (Proc.devRef .tc main_v9)
      = Gk (A7 m c) (A8 m c) (A3 m c) :=
    (Pipeline.withArrays_arr spec0 launch0.win.arr_inj c _ _ 3).trans (final m c)
  have e3 : Pipeline.withArrays (cfgs 0).spec c (V0 m c) (fun w => (dats m 0 c).arrAt w (cfgs 0).N) (Proc.devRef .tc main_arg3)
      = (m ((c : Thread nD τ).loc main_arg3)) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = (m ((c : Thread nD τ).loc main_arg4)) :=
    (Pipeline.withArrays_of_ne _ c (V0 m c) _ main_arg4 (by exact (by decide : ∀ w, Pipeline.arrRef spec0 w ≠ main_arg4))).trans (V_main_arg4 m c)
  rw [e9, e3, e4]
  rfl

/-- The kernel's run, read: @main's result at the tail of `Gk` of the region's arrays, the arguments unchanged. -/
theorem run : θ_run defs (onTc (τ := τ) (main (F := Ideal))) ⟨m, fun _ => 0, ρ⟩ fun r => ∀ c : Dev nD,
      r.2.mem ((c.tc : Thread nD τ).loc main_v17) = tail (Gk (A7 m c) (A8 m c) (A3 m c)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.RefRead.lean ====
/-
  The reference's result read at an index: what each entry of S − D depends on.

  With X1 and X2 the two projections of the messages (kept as they are: the kernel computes the same two), the
  pairwise hidden term at (R, J, h) is max ((X1 (R, h) + X2 (J, h)) + b1 h) 0; S (R, h) is zero plus their sum over
  the 2048 rows J; D (R, h) is the term at J = R; and the program's result is one fixed chain of S − D, W2 and b2.
-/
import proofs.«129454_j29652454212127_2_alg».proof.Proof.Gen.ReferenceIdeal.Run
import proofs.«129454_j29652454212127_2_alg».proof.Proof.Gen.ReferenceIdeal.Read
import Idealize.ShloMosaic.Lib.ValueIdx

noncomputable section

namespace Cert.ReferenceIdeal.RefRead

open Idealize.ShloMosaic Idealize.ShloMosaic.TcCoe Idealize.ShloMosaic.ValueIdx Idealize.SL.Sem
open Cert.ReferenceIdeal Cert.ReferenceIdeal.Gen Cert.ReferenceIdeal.Read

variable (x0 : (⟨S2048x8, .f32⟩ : BufTy).Contents (Elt Ideal)) (x1 : (⟨S64x16, .f32⟩ : BufTy).Contents (Elt Ideal))
  (x2 : (⟨S64, .f32⟩ : BufTy).Contents (Elt Ideal))

/-- Where the pairwise term at (R, J, h) reads the query projection, -/
theorem iq (R J : Fin 2048) (h : Fin 64) : idx_main_v4 (idx_main_v6 (idx_main_v13 (ix2 R h) J)) = ix2 R h :=
  funext fun a => Fin.ext (by match a with | ⟨0, _⟩ => rfl | ⟨1, _⟩ => rfl)

/-- the key projection, -/
theorem ik (R J : Fin 2048) (h : Fin 64) : idx_main_v5 (idx_main_v7 (idx_main_v13 (ix2 R h) J)) = ix2 J h :=
  funext fun a => Fin.ext (by match a with | ⟨0, _⟩ => rfl | ⟨1, _⟩ => rfl)

/-- and the bias. -/
theorem ib (R J : Fin 2048) (h : Fin 64) : idx_main_v9 (idx_main_v10 (idx_main_v13 (ix2 R h) J)) = ix1 h :=
  funext fun a => Fin.ext (by match a with | ⟨0, _⟩ => rfl)

/-- Where the diagonal term at (R, h) reads the bias. -/
theorem ib' (R : Fin 2048) (h : Fin 64) : idx_main_v15 (idx_main_v16 (ix2 R h)) = ix1 h :=
  funext fun a => Fin.ext (by match a with | ⟨0, _⟩ => rfl)

/-- The pairwise hidden term. -/
theorem hidden_apply (R J : Fin 2048) (h : Fin 64) :
    val_main_v12 (F := Ideal) x0 x1 x2 (idx_main_v13 (ix2 R h) J)
      = max ((val_main_v1 (F := Ideal) x0 x1 (ix2 R h) + val_main_v3 (F := Ideal) x0 x1 (ix2 J h)) + x2 (ix1 h)) 0 := by
  rw [val_main_v12_apply, val_main_v11_apply, val_main_v8_apply, val_main_v6_apply, val_main_v4_apply, val_main_v7_apply,
    val_main_v5_apply, val_main_v10_apply, val_main_v9_apply, val_main_call0_v0_apply, val_main_call0_cst_apply, iq, ik, ib]
  simp only [Ideal.addf_def, Ideal.maximumf_def, Ideal.ofBits_def, Ideal.ofBits_zero_f32]

/-- The diagonal term. -/
theorem diag_apply (R : Fin 2048) (h : Fin 64) :
    val_main_v18 (F := Ideal) x0 x1 x2 (ix2 R h)
      = max ((val_main_v1 (F := Ideal) x0 x1 (ix2 R h) + val_main_v3 (F := Ideal) x0 x1 (ix2 R h)) + x2 (ix1 h)) 0 := by
  rw [val_main_v18_apply, val_main_v17_apply, val_main_v14_apply, val_main_v16_apply, val_main_v15_apply,
    val_main_call1_v0_apply, val_main_call1_cst_apply, ib']
  simp only [Ideal.addf_def, Ideal.maximumf_def, Ideal.ofBits_def, Ideal.ofBits_zero_f32]

/-- S − D at (R, h). -/
theorem smd_apply (R : Fin 2048) (h : Fin 64) :
    val_main_v19 (F := Ideal) x0 x1 x2 (ix2 R h)
      = (0 + ∑ J : Fin 2048, max ((val_main_v1 (F := Ideal) x0 x1 (ix2 R h) + val_main_v3 (F := Ideal) x0 x1 (ix2 J h)) + x2 (ix1 h)) 0)
        - max ((val_main_v1 (F := Ideal) x0 x1 (ix2 R h) + val_main_v3 (F := Ideal) x0 x1 (ix2 R h)) + x2 (ix1 h)) 0 := by
  rw [val_main_v19_apply, val_main_v13_apply, val_main_cst_apply, diag_apply]
  simp only [Ideal.subf_def, Ideal.ofBits_def, Ideal.ofBits_zero_f32]
  refine congrArg (fun s => (0 + s) - _) (Finset.sum_congr rfl fun J _ => ?_)
  exact hidden_apply x0 x1 x2 R J h

end Cert.ReferenceIdeal.RefRead

end
-- ==== Proof.Reindex.lean ====
/-
  Re-indexing a sum over naturals: a range of a · b terms block by block, a range of 2 n terms pair by pair; and
  the kernel's order of summation — eight steps of 128 packed rows, each packed row an even and an odd key row —
  against one sum over the 2048 key rows.  Valid in any commutative monoid: no finiteness is used.
-/
import Mathlib.Algebra.BigOperators.Group.Finset.Basic
import Mathlib.Algebra.BigOperators.Intervals

namespace Cert.Reindex

open Finset

variable {M : Type*} [AddCommMonoid M]

/-- A sum over a · b terms, block by block. -/
theorem sum_range_blocks (g : ℕ → M) (a b : ℕ) :
    ∑ x ∈ range (a * b), g x = ∑ i ∈ range a, ∑ k ∈ range b, g (b * i + k) := by
  induction a with
  | zero => simp
  | succ a ih =>
    rw [Nat.succ_mul, sum_range_add, ih, sum_range_succ]
    exact congrArg _ (sum_congr rfl fun k _ => by rw [Nat.mul_comm])

/-- A sum over 2 n terms, pair by pair. -/
theorem sum_range_pairs (f : ℕ → M) (n : ℕ) :
    ∑ J ∈ range (2 * n), f J = ∑ q ∈ range n, (f (2 * q) + f (2 * q + 1)) := by
  induction n with
  | zero => simp
  | succ n ih =>
    rw [show 2 * (n + 1) = 2 * n + 1 + 1 from by omega, sum_range_succ, sum_range_succ, ih, sum_range_succ, add_assoc]

/-- Eight steps of 128 packed rows, even rows then odd rows, are the 2048 rows. -/
theorem sum_steps (f : ℕ → M) :
    ∑ j ∈ range 8, (∑ p ∈ range 128, f (2 * (128 * j + p)) + ∑ p ∈ range 128, f (2 * (128 * j + p) + 1))
      = ∑ J ∈ range 2048, f J := by
  rw [show (2048 : ℕ) = 2 * (8 * 128) from rfl, sum_range_pairs, sum_range_blocks]
  exact sum_congr rfl fun j _ => sum_add_distrib.symm

end Cert.Reindex
-- ==== Proof.Bridge.lean ====
/-
  The two programs compute one function.

  At (R, h), with u = X1 (R, h) + b1 h:  the kernel's output array holds the sum over all 2048 key rows J of
  max (u + X2 (J, h)) 0 — its eight steps of 128 packed rows, even then odd rows, re-indexed — less max (u + X2 (R, h)) 0;
  the reference holds 0 plus the sum of max ((X1 (R, h) + X2 (J, h)) + b1 h) 0, less the term at J = R.  The two differ by
  the order of three summands, and addition of extended reals is commutative and associative.  The host
  operations after that are the same chain in both programs.
-/
import proofs.«129454_j29652454212127_2_alg».proof.Proof.HostSide
import proofs.«129454_j29652454212127_2_alg».proof.Proof.RefRead
import proofs.«129454_j29652454212127_2_alg».proof.Proof.Reindex

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.PointValue Cert.KernelIdeal.Accum Cert.KernelIdeal.HostSide

variable (m : (ℓ : Loc nD τ sig) → Buf (Elt Ideal) ℓ)

/-- One reduction step's part of query row R, over the key projections: packed rows 128 j … as even and odd key rows. -/
theorem pt_eq (c : Dev nD) (R j h : ℕ) (hR : R < 2048) (hj : j < 8) (hh : h < 64) :
    pt (A7 m c) (A8 m c) R j h
      = ∑ p ∈ Finset.range 128, max (at2 (X1b (m ((c : Thread nD τ).loc main_arg0)) (m ((c : Thread nD τ).loc main_arg1)) (m ((c : Thread nD τ).loc main_arg2))) R h
            + at2 (X2 (m ((c : Thread nD τ).loc main_arg0)) (m ((c : Thread nD τ).loc main_arg1))) (2 * (128 * j + p)) h) 0
        + ∑ p ∈ Finset.range 128, max (at2 (X1b (m ((c : Thread nD τ).loc main_arg0)) (m ((c : Thread nD τ).loc main_arg1)) (m ((c : Thread nD τ).loc main_arg2))) R h
            + at2 (X2 (m ((c : Thread nD τ).loc main_arg0)) (m ((c : Thread nD τ).loc main_arg1))) (2 * (128 * j + p) + 1) h) 0 := by
  unfold pt
  rw [A7_lo m c R h hR hh, A7_hi m c R h hR hh]
  congr 1
  · exact Finset.sum_congr rfl fun p hp => by
      have := Finset.mem_range.mp hp
      rw [A8_lo m c (128 * j + p) h (by omega) hh]
  · exact Finset.sum_congr rfl fun p hp => by
      have := Finset.mem_range.mp hp
      rw [A8_hi m c (128 * j + p) h (by omega) hh]

/-- The kernel's output array at (R, h): one sum over the 2048 key rows, less the diagonal term. -/
theorem Gk_at (c : Dev nD) (R : Fin 2048) (h : Fin 64) :
    Gk (A7 m c) (A8 m c) (A3 m c) (ix2 R h)
      = (∑ J ∈ Finset.range 2048, max (at2 (X1b (m ((c : Thread nD τ).loc main_arg0)) (m ((c : Thread nD τ).loc main_arg1)) (m ((c : Thread nD τ).loc main_arg2))) R.val h.val
            + at2 (X2 (m ((c : Thread nD τ).loc main_arg0)) (m ((c : Thread nD τ).loc main_arg1))) J h.val) 0)
        - max (at2 (X1b (m ((c : Thread nD τ).loc main_arg0)) (m ((c : Thread nD τ).loc main_arg1)) (m ((c : Thread nD τ).loc main_arg2))) R.val h.val
            + at2 (X2 (m ((c : Thread nD τ).loc main_arg0)) (m ((c : Thread nD τ).loc main_arg1))) R.val h.val) 0 := by
  have hR := R.isLt
  have hh := h.isLt
  unfold Gk
  show (∑ j ∈ Finset.range 8, pt (A7 m c) (A8 m c) R.val j h.val) - max (at2 (A7 m c) R.val h.val + at2 (A3 m c) R.val h.val) 0 = _
  rw [A7_lo m c R.val h.val hR hh, A3_eq m c,
    ← Cert.Reindex.sum_steps (fun J => max (at2 (X1b (m ((c : Thread nD τ).loc main_arg0)) (m ((c : Thread nD τ).loc main_arg1)) (m ((c : Thread nD τ).loc main_arg2))) R.val h.val
            + at2 (X2 (m ((c : Thread nD τ).loc main_arg0)) (m ((c : Thread nD τ).loc main_arg1))) J h.val) 0)]
  refine congrArg (· - _) (Finset.sum_congr rfl fun j hj => ?_)
  exact pt_eq m c R.val j h.val hR (Finset.mem_range.mp hj) hh

/-- The kernel's two projections are the reference's. -/
theorem X1_eq (a0 : FVec Ideal S2048x8 .f32) (a1 : FVec Ideal S64x16 .f32) :
    X1 a0 a1 = Cert.ReferenceIdeal.Read.val_main_v1 (F := Ideal) a0 a1 := rfl
theorem X2_eq (a0 : FVec Ideal S2048x8 .f32) (a1 : FVec Ideal S64x16 .f32) :
    X2 a0 a1 = Cert.ReferenceIdeal.Read.val_main_v3 (F := Ideal) a0 a1 := rfl

/-- The kernel's output array IS the reference's S − D. -/
theorem smd_eq (c : Dev nD) :
    Gk (A7 m c) (A8 m c) (A3 m c)
      = Cert.ReferenceIdeal.Read.val_main_v19 (F := Ideal) (m ((c : Thread nD τ).loc main_arg0)) (m ((c : Thread nD τ).loc main_arg1)) (m ((c : Thread nD τ).loc main_arg2)) := by
  funext i
  obtain ⟨R, h, rfl⟩ : ∃ (R : Fin 2048) (h : Fin 64), i = ix2 R h := ⟨i 0, i 1, eq_ix2 i⟩
  have hR := R.isLt
  have hh := h.isLt
  rw [Gk_at m c R h, Cert.ReferenceIdeal.RefRead.smd_apply, X1b_at _ _ _ R.val h.val hR hh, zero_add,
    ← Fin.sum_univ_eq_sum_range (fun J => max (at2 (X1 (m ((c : Thread nD τ).loc main_arg0)) (m ((c : Thread nD τ).loc main_arg1))) R.val h.val
        + m ((c : Thread nD τ).loc main_arg2) (ix1 ⟨h.val, hh⟩)
        + at2 (X2 (m ((c : Thread nD τ).loc main_arg0)) (m ((c : Thread nD τ).loc main_arg1))) J h.val) 0) 2048,
    ← X1_eq, ← X2_eq, ← at2_ix2 (X1 _ _) R h, ← at2_ix2 (X2 _ _) R h, add_right_comm]
  refine congrArg (· - _) (Finset.sum_congr rfl fun J _ => ?_)
  rw [← at2_ix2 (X2 _ _) J h, add_right_comm]

/-- The reference's result is the same chain of host operations, of S − D. -/
theorem ref_tail (a0 : FVec Ideal S2048x8 .f32) (a1 : FVec Ideal S64x16 .f32) (a2 : FVec Ideal S64 .f32)
    (a3 : FVec Ideal S8x64 .f32) (a4 : FVec Ideal S8 .f32) :
    Cert.ReferenceIdeal.Read.val_main_v27 (F := Ideal) a0 a1 a2 a3 a4
      = tail (Cert.ReferenceIdeal.Read.val_main_v19 (F := Ideal) a0 a1 a2) a3 a4 := rfl

end Cert.Bridge

end
-- ==== Proof.lean ====
/-
  Pairwise edge aggregation: for every node i, the mean over the other nodes j ≠ i of a two-layer map of the pair
  (message i, message j).  The first layer splits over the pair, so its hidden value is
  max (X1 (i, h) + X2 (j, h) + b1 h) 0 with X1, X2 the projections of the messages by the two halves of W1; the
  second layer is linear, so it is applied once to S − D, where S (i, h) sums the hidden values over ALL j and
  D (i, h) is the value at j = i.

  The kernel computes S − D in a grid of 8 row blocks by 8 reduction steps over key rows packed two to a
  128-lane row, accumulating in the output block and subtracting the diagonal term after the last step; the
  reference computes it with one sum.  Over the extended reals both are the same sum of the same terms
  (Bridge.lean), without any use of the inputs' finiteness; the operations before and after are the same in both
  programs.  The three frames are the generated runs; the idealization rewrote nothing.
-/
import proofs.«129454_j29652454212127_2_alg».proof.Defs
import proofs.«129454_j29652454212127_2_alg».proof.Proof.Gen.Kernel
import proofs.«129454_j29652454212127_2_alg».proof.Proof.Gen.Kernel.Frame
import proofs.«129454_j29652454212127_2_alg».proof.Proof.Gen.KernelIdeal
import proofs.«129454_j29652454212127_2_alg».proof.Proof.Gen.KernelIdeal.Frame
import proofs.«129454_j29652454212127_2_alg».proof.Proof.Gen.ReferenceIdeal
import proofs.«129454_j29652454212127_2_alg».proof.Proof.Gen.ReferenceIdeal.Run
import proofs.«129454_j29652454212127_2_alg».proof.Proof.Gen.ReferenceIdeal.Read
import proofs.«129454_j29652454212127_2_alg».proof.Proof.Gen.Pre_finite_inputs
import proofs.«129454_j29652454212127_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the shared chain of host operations applied to S − D of arguments that agree. -/
theorem algebraic : Cert.algebraic_KernelIdeal_ReferenceIdeal := by
  intro m ρ m' ρ' _ hagree
  refine ⟨fun c => Cert.KernelIdeal.HostSide.tail
      (Cert.KernelIdeal.Accum.Gk (Cert.KernelIdeal.Accum.A7 m c) (Cert.KernelIdeal.Accum.A8 m c) (Cert.KernelIdeal.Accum.A3 m c))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2, Cert.Bridge.ref_tail, ← Cert.Bridge.smd_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
